-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x128 : Shape := ⟨2, ![512, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x512 .f32) (main_arg1 : FVec F S16384x16384 .f32) (main_arg2 : FVec F S512x128 .f32) (main_arg3 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Kernel.lean ====
abbrev S16384x512 : Shape := ⟨2, ![16384, 512]⟩
abbrev S16384x16384 : Shape := ⟨2, ![16384, 16384]⟩
abbrev S512x128 : Shape := ⟨2, ![512, 128]⟩
abbrev S16384x128 : Shape := ⟨2, ![16384, 128]⟩
abbrev S2048x512 : Shape := ⟨2, ![2048, 512]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 8
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x512, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x128, .f32⟩
  | .local _ .vmem, ⟨5, _⟩ => ⟨S2048x128, .f32⟩
  | .local _ .vmem, ⟨6, _⟩ => ⟨S2048x128, .f32⟩
  | .local _ .vmem, ⟨7, _⟩ => ⟨S1024x2048, .f32⟩
  | .local _ .vmem, ⟨8, _⟩ => ⟨S1024x2048, .f32⟩
  | .local _ .vmem, ⟨9, _⟩ => ⟨S16384x128, .f32⟩
  | .local _ .vmem, ⟨10, _⟩ => ⟨S1024x128, .f32⟩
  | .local _ .vmem, ⟨11, _⟩ => ⟨S1024x128, .f32⟩
  | .local _ .vmem, ⟨12, _⟩ => ⟨S1024x2048, .f32⟩
  | .local _ .vmem, ⟨13, _⟩ => ⟨S1024x2048, .f32⟩
  | .local _ .vmem, ⟨14, _⟩ => ⟨S16384x128, .f32⟩
  | .local _ .vmem, ⟨15, _⟩ => ⟨S1024x128, .f32⟩
  | .local _ .vmem, ⟨16, _⟩ => ⟨S1024x128, .f32⟩
  | .local _ .vmem, ⟨17, _⟩ => ⟨S1024x2048, .f32⟩
  | .local _ .vmem, ⟨18, _⟩ => ⟨S1024x2048, .f32⟩
  | .local _ .vmem, ⟨19, _⟩ => ⟨S16384x128, .f32⟩
  | .local _ .vmem, ⟨20, _⟩ => ⟨S1024x128, .f32⟩
  | .local _ .vmem, ⟨21, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 8], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![16, 8], ![false, false]⟩

def k3_mult1 (i : grid3.Coords) : BitVec 32 :=
  let arg1 : BitVec 32 := BitVec.ofNat 32 (i 1).val
  let c2048_i32 : BitVec 32 := 2048#32
  let v3 : BitVec 32 := Scalar.muli arg1 c2048_i32
  v3
def k3_off1 (i : grid3.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S16384x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  shapeCasts_S1024x128_S1024x128 : S1024x128.ShapeCasts S1024x128
  dot_S2048x512_S512x128_S2048x128_1_0_0_1_n_n_wf : DotDims.WF S2048x512 S512x128 S2048x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x128.size a ≤ S16384x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x16384.size a
  hwx2_0 : ∀ i : grid2.Coords, EltTy.bits .f32 = 32 ∨ (Rect.block (s := S16384x16384) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x128.size a ≤ S16384x128.size a
  hwx2_1 : ∀ i : grid2.Coords, EltTy.bits .f32 = 32 ∨ (Rect.block (s := S16384x128) S16384x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S16384x128.size a
  hwx2_2 : ∀ i : grid2.Coords, EltTy.bits .f32 = 32 ∨ (Rect.block (s := S16384x128) S1024x128.size (cc2_transform_2 i) (hinb2_2 i)).WholeWords (EltTy.packing .f32)
  hrank3 : 0 < grid3.rank
  k3_mult1_dvd : ∀ i : grid3.Coords, 2048 ∣ (k3_mult1 i).toNat
  k3_off1_inb : ∀ i : grid3.Coords, ∀ a, (k3_off1 i) a + S2048x128.size a ≤ S16384x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S16384x16384.size a
  hwx3_0 : ∀ i : grid3.Coords, EltTy.bits .f32 = 32 ∨ (Rect.block (s := S16384x16384) S1024x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x128.size a ≤ S16384x128.size a
  hwx3_1 : ∀ i : grid3.Coords, EltTy.bits .f32 = 32 ∨ (Rect.block (s := S16384x128) S16384x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S16384x128.size a
  hwx3_2 : ∀ i : grid3.Coords, EltTy.bits .f32 = 32 ∨ (Rect.block (s := S16384x128) S1024x128.size (cc3_transform_2 i) (hinb3_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S16384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S16384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16384x512 : Shape := ⟨2, ![16384, 512]⟩
abbrev S16384x16384 : Shape := ⟨2, ![16384, 16384]⟩
abbrev S512x128 : Shape := ⟨2, ![512, 128]⟩
abbrev S_ : Shape := ⟨0, ![]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x512, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  bcast_S_S16384x128 : S_.BroadcastsInDim S16384x128 (![] : Fin 0 → Fin S16384x128.rank)
  dot_S16384x512_S512x128_S16384x128_1_0_0_1_n_n_wf : DotDims.WF S16384x512 S512x128 S16384x128 [1] [0] [0] [1] [] []
  dot_S16384x16384_S16384x128_S16384x128_1_0_0_1_n_n_wf : DotDims.WF S16384x16384 S16384x128 S16384x128 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KernelRun.lean ====
import proofs.«119138_j31550829756529_2_alg».proof.Proof.Gen.KernelIdeal.Frame

/-!
The idealized kernel's program is four launches in a row.  Each launch rewrites only its own result
array, so the memory after the whole program holds, in the last launch's result array, what that
launch's write-backs leave, and the four argument arrays as they were at the start.  This module
states that as a fact about every weakly fair execution: the result array is named as the last
launch's folded write-backs over the contents it was entered with.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the four launches terminates without a fault; the result array ends
    at the fourth launch's folded write-backs over its entry contents, and the arguments end unchanged. -/
theorem run : θ_run defs (onTc (τ := τ) (main (F := F))) ⟨m, fun _ => 0, ρ⟩ (fun r => ∀ c : Dev nD,
      r.2.mem ((c.tc : Thread nD τ).loc main_v3) = (dat3 (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.BlockSum.lean ====
import Idealize.ShloMosaic.Lib.ValueIdx
import Idealize.ShloMosaic.PureOps.Ideal

/-!
One diffusion step is a matrix product over the extended reals: entry (r, c) of A·B is the sum over
k below 16384 of A[r, k] · B[k, c].  The kernel forms that sum in eight consecutive stretches of 2048
values of k, starting from zero and adding one stretch at a time; the sum of all eight stretches is the
whole sum, because addition of extended reals is commutative and associative (no finiteness is used).
-/

noncomputable section

open scoped BigOperators

namespace Cert.Diffuse

open Idealize.ShloMosaic Idealize.ShloMosaic.ValueIdx

/-- The support matrix's index set, and a feature matrix's. -/
abbrev SNN : Shape := ⟨2, ![16384, 16384]⟩
abbrev SND : Shape := ⟨2, ![16384, 128]⟩

/-- A sum over 16384 = 8 · 2048 consecutive indices is the sum, over the 8 stretches, of each stretch's sum. -/
theorem sum_stretches {M : Type*} [AddCommMonoid M] (g : Fin 16384 → M) :
    ∑ k : Fin 16384, g k
      = ∑ kb : Fin 8, ∑ kk : Fin 2048, g ⟨2048 * kb.val + kk.val, by have := kb.isLt; have := kk.isLt; omega⟩ := by
  rw [← Equiv.sum_comp (finProdFinEquiv : Fin 8 × Fin 2048 ≃ Fin 16384) g, Fintype.sum_prod_type]
  refine Finset.sum_congr rfl fun kb _ => Finset.sum_congr rfl fun kk _ => ?_
  congr 1
  apply Fin.ext
  show kk.val + 2048 * kb.val = 2048 * kb.val + kk.val
  omega

/-- Entry (r, c) of the product A·B. -/
def mm (A : SNN.Idx → EReal) (B : SND.Idx → EReal) (r : Fin 16384) (c : Fin 128) : EReal :=
  ∑ k : Fin 16384, A (ix2 r k) * B (ix2 k c)

/-- The product as an array. -/
def prod (A : SNN.Idx → EReal) (B : SND.Idx → EReal) : SND.Idx → EReal :=
  fun i => mm A B (i 0) (i 1)

/-- Stretch kb's share of entry (r, c): the sum over the 2048 values of k from 2048·kb on (nothing from stretch 8 on). -/
def stretch (A : SNN.Idx → EReal) (B : SND.Idx → EReal) (r : Fin 16384) (c : Fin 128) (kb : ℕ) : EReal :=
  if h : kb < 8 then
    ∑ kk : Fin 2048, A (ix2 r ⟨2048 * kb + kk.val, by have := kk.isLt; omega⟩)
      * B (ix2 ⟨2048 * kb + kk.val, by have := kk.isLt; omega⟩ c)
  else 0

/-- The running sum after the first n stretches. -/
def upTo (A : SNN.Idx → EReal) (B : SND.Idx → EReal) (r : Fin 16384) (c : Fin 128) (n : ℕ) : EReal :=
  ∑ kb ∈ Finset.range n, stretch A B r c kb

theorem upTo_one (A : SNN.Idx → EReal) (B : SND.Idx → EReal) (r : Fin 16384) (c : Fin 128) :
    upTo A B r c 1 = stretch A B r c 0 := Finset.sum_range_one _

theorem upTo_succ (A : SNN.Idx → EReal) (B : SND.Idx → EReal) (r : Fin 16384) (c : Fin 128) (n : ℕ) :
    upTo A B r c (n + 1) = upTo A B r c n + stretch A B r c n := Finset.sum_range_succ _ _

/-- All eight stretches together are the whole entry. -/
theorem upTo_eight (A : SNN.Idx → EReal) (B : SND.Idx → EReal) (r : Fin 16384) (c : Fin 128) :
    upTo A B r c 8 = mm A B r c := by
  unfold upTo mm
  rw [Finset.sum_range, sum_stretches]
  refine Finset.sum_congr rfl fun kb _ => ?_
  unfold stretch
  rw [dif_pos kb.isLt]

/-- The scale the kept inputs are multiplied by: the single-precision value nearest 10/9, as an exact real. -/
abbrev keepScale : EReal := Ideal.ofBits .f32 0x3F8E38E4#32

abbrev SNK : Shape := ⟨2, ![16384, 512]⟩
abbrev SKD : Shape := ⟨2, ![512, 128]⟩

/-- Entry (r, c) of the first launch's result: the sum over k below 512 of ((X[r,k] · M[r,k]) · scale) · W[k,c]. -/
def lin (X M : SNK.Idx → EReal) (W : SKD.Idx → EReal) (r : Fin 16384) (c : Fin 128) : EReal :=
  ∑ k : Fin 512, X (ix2 r k) * M (ix2 r k) * keepScale * W (ix2 k c)

/-- That result as an array. -/
def linArr (X M : SNK.Idx → EReal) (W : SKD.Idx → EReal) : SND.Idx → EReal :=
  fun i => lin X M W (i 0) (i 1)

end Cert.Diffuse

end
-- ==== Proof.Linear.lean ====
import proofs.«119138_j31550829756529_2_alg».proof.Proof.Gen.KernelIdeal.Frame
import proofs.«119138_j31550829756529_2_alg».proof.Proof.BlockSum
import Idealize.ShloMosaic.Lib.Pipeline.Value
import Idealize.ShloMosaic.Lib.ValueIdx
import Idealize.ShloMosaic.PureOps.Ideal.Laws
import Idealize.ShloMosaic.Lib.Tactic

/-!
The first launch of the idealized kernel scales the kept inputs and multiplies by the weight matrix: on
each of its 8 points it loads 2048 rows of x and of the keep mask and the whole 512 × 128 weight matrix,
forms (x · mask) · scale entry by entry, multiplies by the weights with no accumulator, and stores the
2048 × 128 block.  Every point writes its block back, the 8 blocks tile the result array, and entry
(r, c) of the result is the sum over k below 512 of ((x[r,k] · mask[r,k]) · scale) · w[k,c].
-/

set_option maxRecDepth 16384

noncomputable section

namespace Cert.KernelIdeal.Linear

open Cert.KernelIdeal Cert.KernelIdeal.Gen Cert.Diffuse
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's arithmetic at one entry, over the extended reals -/

theorem lhs_row (j : S2048x128.Idx) (q : dot_S2048x512_S512x128_S2048x128_1_0_0_1_n_n.contr.Idx) : (dot_S2048x512_S512x128_S2048x128_1_0_0_1_n_n.lhsIdx j q 0).val = (j 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs_col (j : S2048x128.Idx) (q : dot_S2048x512_S512x128_S2048x128_1_0_0_1_n_n.contr.Idx) : (dot_S2048x512_S512x128_S2048x128_1_0_0_1_n_n.lhsIdx j q 1).val = (q ⟨0, by decide⟩).val :=
  dot_S2048x512_S512x128_S2048x128_1_0_0_1_n_n.lhsIdx_val_of_single rfl j q
theorem rhs_row (j : S2048x128.Idx) (q : dot_S2048x512_S512x128_S2048x128_1_0_0_1_n_n.contr.Idx) : (dot_S2048x512_S512x128_S2048x128_1_0_0_1_n_n.rhsIdx j q 0).val = (q ⟨0, by decide⟩).val :=
  dot_S2048x512_S512x128_S2048x128_1_0_0_1_n_n.rhsIdx_val_of_single rfl j q
theorem rhs_col (j : S2048x128.Idx) (q : dot_S2048x512_S512x128_S2048x128_1_0_0_1_n_n.contr.Idx) : (dot_S2048x512_S512x128_S2048x128_1_0_0_1_n_n.rhsIdx j q 1).val = (j 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- Entry (r, cc) of the stored block: the sum over k of ((x[r,k] · mask[r,k]) · scale) · w[k,cc]. -/
theorem block_entry (v0 v1 : FVec Ideal S2048x512 .f32) (v5 : FVec Ideal S512x128 .f32) (r : Fin 2048) (cc : Fin 128) :
    k0_pay1 (F := Ideal) v0 v1 v5 (ix2 r cc) = ∑ k : Fin 512, v0 (ix2 r k) * v1 (ix2 r k) * keepScale * v5 (ix2 k cc) := by
  unfold k0_pay1
  show FloatOps.matmul (F := Ideal) dot_S2048x512_S512x128_S2048x128_1_0_0_1_n_n (some .fp32)
      (mulf (mulf v0 v1) (broadcast S2048x512 (Scalar.ofBits (F := Ideal) .f32 0x3F8E38E4#32))) v5
      (constant S2048x128 .f32 0x00000000#32) (ix2 r cc) = _
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 r cc) ((contrEquiv1 dot_S2048x512_S512x128_S2048x128_1_0_0_1_n_n 512 rfl rfl).symm k) = ix2 r k := funext fun a => Fin.ext (by
    match a with
    | ⟨0, _⟩ => exact lhs_row _ _
    | ⟨1, _⟩ => exact (lhs_col _ _).trans hk)
  have er : dot_S2048x512_S512x128_S2048x128_1_0_0_1_n_n.rhsIdx (ix2 r cc) ((contrEquiv1 dot_S2048x512_S512x128_S2048x128_1_0_0_1_n_n 512 rfl rfl).symm k) = ix2 k cc := funext fun a => Fin.ext (by
    match a with
    | ⟨0, _⟩ => exact (rhs_row _ _).trans hk
    | ⟨1, _⟩ => exact rhs_col _ _)
  rw [el, er]
  rfl

/-! ## Where a point's blocks sit in the arrays -/

section Blocks
variable (V : (c : Dev nD) → (b : Ref sig .tc) → Buf (Elt Ideal) ((c : Thread nD τ).loc b))

/-- The printed index maps over the grid: point t is row block t; the weight window never moves. -/
theorem where_blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arguments as the launch finds them. -/
abbrev Xin (c : Dev nD) : SNK.Idx → EReal := V c main_arg0
abbrev Mask (c : Dev nD) : SNK.Idx → EReal := V c main_arg3
abbrev Wgt (c : Dev nD) : SKD.Idx → EReal := V c main_arg2

abbrev xBlk (c : Dev nD) (t : Fin cfg0.N) : FVec Ideal S2048x512 .f32 := iblk0 V c 0 t
abbrev mBlk (c : Dev nD) (t : Fin cfg0.N) : FVec Ideal S2048x512 .f32 := iblk0 V c 1 t
abbrev wBlk (c : Dev nD) (t : Fin cfg0.N) : FVec Ideal S512x128 .f32 := iblk0 V c 2 t

/-- Entry (r, k) of the x block at point t is x[2048·t + r, k]. -/
theorem x_block (c : Dev nD) (t : Fin cfg0.N) (r : Fin 2048) (k : Fin 512) (hr : 2048 * t.val + r.val < 16384) :
    xBlk V c t (ix2 r k) = Xin V c (ix2 ⟨2048 * t.val + r.val, hr⟩ k) := by
  obtain ⟨e0, e1, -, -, -, -, -, -⟩ := where_blocks t
  unfold xBlk iblk0
  rw [View.read_apply]
  show V c main_arg0 _ = V c main_arg0 _
  refine congrArg (V c main_arg0) (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 512 + 1 * k.val = k.val; rw [e1]; omega

/-- Entry (r, k) of the mask block at point t is mask[2048·t + r, k]. -/
theorem m_block (c : Dev nD) (t : Fin cfg0.N) (r : Fin 2048) (k : Fin 512) (hr : 2048 * t.val + r.val < 16384) :
    mBlk V c t (ix2 r k) = Mask V c (ix2 ⟨2048 * t.val + r.val, hr⟩ k) := by
  obtain ⟨-, -, e2, e3, -, -, -, -⟩ := where_blocks t
  unfold mBlk iblk0
  rw [View.read_apply]
  show V c main_arg3 _ = V c main_arg3 _
  refine congrArg (V c main_arg3) (funext fun a => Fin.ext ?_)
  match a with
  | ⟨0, _⟩ => show win0_1.index t (0 : Fin 2) * 2048 + 1 * r.val = 2048 * t.val + r.val; rw [e2]; omega
  | ⟨1, _⟩ => show win0_1.index t (1 : Fin 2) * 512 + 1 * k.val = k.val; rw [e3]; omega

/-- The weight block is the whole weight matrix. -/
theorem w_block (c : Dev nD) (t : Fin cfg0.N) (k : Fin 512) (cc : Fin 128) :
    wBlk V c t (ix2 k cc) = Wgt V c (ix2 k cc) := by
  obtain ⟨-, -, -, -, e4, e5, -, -⟩ := where_blocks t
  unfold wBlk iblk0
  rw [View.read_apply]
  show V c main_arg2 _ = V c main_arg2 _
  refine congrArg (V c main_arg2) (funext fun a => Fin.ext ?_)
  match a with
  | ⟨0, _⟩ => show win0_2.index t (0 : Fin 2) * 512 + 1 * k.val = k.val; rw [e4]; omega
  | ⟨1, _⟩ => show win0_2.index t (1 : Fin 2) * 128 + 1 * cc.val = cc.val; rw [e5]; omega

/-! ## The result array after the launch -/

/-- What the launch leaves in its result array. -/
def result (c : Dev nD) : SND.Idx → EReal := linArr (Xin V c) (Mask V c) (Wgt V c)

/-- The block point t stores, at (r, cc), is result entry (2048·t + r, cc). -/
theorem stored_entry (c : Dev nD) (t : Fin cfg0.N) (r : Fin 2048) (cc : Fin 128) (hr : 2048 * t.val + r.val < 16384) :
    out0_3 (iblk0 V c 0 t) (iblk0 V c 1 t) (iblk0 V c 2 t) (ix2 r cc) = lin (Xin V c) (Mask V c) (Wgt V c) ⟨2048 * t.val + r.val, hr⟩ cc := by
  unfold out0_3
  rw [View.canon_unit_zero hz]
  simp only [View.ld_unit_zero (S := S2048x512) hz, View.ld_unit_zero (S := S512x128) hz]
  refine (block_entry (xBlk V c t) (mBlk V c t) (wBlk V c t) r cc).trans ?_
  unfold lin
  refine Finset.sum_congr rfl fun k _ => ?_
  rw [x_block V c t r k hr, m_block V c t r k hr, w_block V c t k cc]

set_option maxRecDepth 400000 in
/-- The block a point writes back is the result on that block's rows. -/
theorem written_back (c : Dev nD) (t : Fin cfg0.N) (hf : (cfg0.win 3).flush t = true) :
    (dat0 V c).flushed 3 t = ((cfg0.win 3).blk t).view.read (Elt Ideal) (result V c) := by
  have hN : t.val < 8 := lt_of_lt_of_eq t.isLt (show cfg0.N = 8 from N_0)
  obtain ⟨-, -, -, -, -, -, e6, e7⟩ := where_blocks t
  show (cfg0.win 3).cut (grid0.coords t) ((dat0 V c).after 3 t) = _
  rw [after0_3]
  funext j
  have hj0 : (j 0).val < 2048 := (j 0).isLt
  have hj1 : (j 1).val < 128 := (j 1).isLt
  have hr : 2048 * t.val + (j 0).val < 16384 := by omega
  show out0_3 (iblk0 V c 0 t) (iblk0 V c 1 t) (iblk0 V c 2 t) j = result V c (((cfg0.win 3).blk t).view.emb j)
  have hjx : j = ix2 (⟨(j 0).val, hj0⟩ : Fin 2048) (⟨(j 1).val, hj1⟩ : Fin 128) := funext fun a => by
    match a with
    | ⟨0, _⟩ => rfl
    | ⟨1, _⟩ => rfl
  refine ((congrArg (out0_3 (iblk0 V c 0 t) (iblk0 V c 1 t) (iblk0 V c 2 t)) hjx).trans
    (stored_entry V c t ⟨(j 0).val, hj0⟩ ⟨(j 1).val, hj1⟩ hr)).trans ?_
  have e0 : (((cfg0.win 3).blk t).view.emb j) 0 = (⟨2048 * t.val + (j 0).val, hr⟩ : Fin 16384) := Fin.ext (by
    show win0_3.index t (0 : Fin 2) * 2048 + 1 * (j 0).val = 2048 * t.val + (j 0).val; rw [e6]; omega)
  have e1 : (((cfg0.win 3).blk t).view.emb j) 1 = (⟨(j 1).val, hj1⟩ : Fin 128) := Fin.ext (by
    show win0_3.index t (1 : Fin 2) * 128 + 1 * (j 1).val = (j 1).val; rw [e7]; omega)
  show _ = lin (Xin V c) (Mask V c) (Wgt V c) ((((cfg0.win 3).blk t).view.emb j) 0) ((((cfg0.win 3).blk t).view.emb j) 1)
  rw [e0, e1]

/-- Every index of the result array lies in the block of the point of its row block. -/
theorem all_covered (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 8 := N_0
  let t : Fin cfg0.N := ⟨(i 0).val / 2048, by rw [hN]; omega⟩
  have htv : t.val = (i 0).val / 2048 := rfl
  obtain ⟨-, -, -, -, -, -, e6, e7⟩ := where_blocks t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [e6, htv]; omega
  | ⟨1, _⟩ =>
    show win0_3.index t (1 : Fin 2) * 128 ≤ (i 1).val ∧ (i 1).val < win0_3.index t (1 : Fin 2) * 128 + 128
    rw [e7]; omega

/-- So the result array ends holding the scaled, masked input times the weights. -/
theorem array_after (c : Dev nD) : (dat0 V c).arrAt 3 cfg0.N = result V c :=
  (dat0 V c).arrAt_eq_of_cover 3 (result V c) (written_back V c) all_covered

end Blocks

end Cert.KernelIdeal.Linear

end
-- ==== Proof.Diffuse1.lean ====
import proofs.«119138_j31550829756529_2_alg».proof.Proof.Gen.KernelIdeal.Frame
import proofs.«119138_j31550829756529_2_alg».proof.Proof.BlockSum
import Idealize.ShloMosaic.Lib.Pipeline.Value
import Idealize.ShloMosaic.Lib.ValueIdx
import Idealize.ShloMosaic.PureOps.Ideal.Laws
import Idealize.ShloMosaic.Lib.Tactic

/-!
Launch 1 of the idealized kernel multiplies the 16384 × 16384 support matrix A by the feature matrix B
it finds in memory.  Its grid has 16 × 8 points: point t works on the 1024 rows from 1024·(t / 8)
and on the 2048 values of the summation index from 2048·(t % 8).  At the first point of a row block the
output block is set to zero; every point adds its stretch of the sum.  So after point t the block
holds the sum of the first t % 8 + 1 stretches, and the block written back, after the eighth stretch, is the
whole product on its rows.  The sixteen written-back blocks tile the result array.
-/

set_option maxRecDepth 16384

noncomputable section

namespace Cert.KernelIdeal.Diffuse1

open Cert.KernelIdeal Cert.KernelIdeal.Gen Cert.Diffuse
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What one point leaves in the output block, as the body's arithmetic -/

section AnyValues
variable {F : FTy → Type} [FloatOps F]

/-- A point that is not the first of its row block leaves, over the block's contents xo, the body's sum
    of xo and the product of the support block with the stretch of the feature matrix it loads. -/
theorem later_point (c : Dev nD) (i : grid1.Coords) (a2 : Memref sig .tc .vmem S1024x2048 .f32) (h2 : a2.IsWhole)
    (a3 : Memref sig .tc .vmem S16384x128 .f32) (h3 : a3.IsWhole) (a4 : Memref sig .tc .vmem S1024x128 .f32) (h4 : a4.IsWhole)
    (hc : ¬cond1_0 i) (x0 : Vec F S1024x2048 .f32) (x1 : Vec F S16384x128 .f32) (xo : Vec F S1024x128 .f32) :
    out1_B_2 c i a2 h2 a3 h3 a4 h4 hc x0 x1 xo
      = k1_pay2 (View.ld x1 (Rect.unit (s := S16384x128) (k1_off1 i) S2048x128.size (k1_off1_inb i))) x0 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S1024x2048) hz,
    View.ld_unit_zero (S := S1024x128) hz]

/-- The first point of a row block stores the zero block, reads it back, and leaves the same sum over it. -/
theorem first_point (c : Dev nD) (i : grid1.Coords) (a2 : Memref sig .tc .vmem S1024x2048 .f32) (h2 : a2.IsWhole)
    (a3 : Memref sig .tc .vmem S16384x128 .f32) (h3 : a3.IsWhole) (a4 : Memref sig .tc .vmem S1024x128 .f32) (h4 : a4.IsWhole)
    (hc : cond1_0 i) (x0 : Vec F S1024x2048 .f32) (x1 : Vec F S16384x128 .f32) :
    out1_A_2 c i a2 h2 a3 h3 a4 h4 hc x0 x1
      = k1_pay2 (View.ld x1 (Rect.unit (s := S16384x128) (k1_off1 i) S2048x128.size (k1_off1_inb i))) x0 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x2048) hz]

end AnyValues

/-! ## The body's arithmetic at one entry, over the extended reals -/

theorem lhs_row (j : S1024x128.Idx) (q : dot_S1024x2048_S2048x128_S1024x128_1_0_0_1_n_n.contr.Idx) : (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_col (j : S1024x128.Idx) (q : dot_S1024x2048_S2048x128_S1024x128_1_0_0_1_n_n.contr.Idx) : (dot_S1024x2048_S2048x128_S1024x128_1_0_0_1_n_n.lhsIdx j q 1).val = (q ⟨0, by decide⟩).val :=
  dot_S1024x2048_S2048x128_S1024x128_1_0_0_1_n_n.lhsIdx_val_of_single rfl j q
theorem rhs_row (j : S1024x128.Idx) (q : dot_S1024x2048_S2048x128_S1024x128_1_0_0_1_n_n.contr.Idx) : (dot_S1024x2048_S2048x128_S1024x128_1_0_0_1_n_n.rhsIdx j q 0).val = (q ⟨0, by decide⟩).val :=
  dot_S1024x2048_S2048x128_S1024x128_1_0_0_1_n_n.rhsIdx_val_of_single rfl j q
theorem rhs_col (j : S1024x128.Idx) (q : dot_S1024x2048_S2048x128_S1024x128_1_0_0_1_n_n.contr.Idx) : (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Entry (r, cc) of the body's sum: the old entry plus the sum, over the 2048 loaded values of the summation
    index, of support entry (r, kk) times feature entry (kk, cc). -/
theorem sum_entry (v6 : FVec Ideal S2048x128 .f32) (v8 : FVec Ideal S1024x2048 .f32) (v10 : FVec Ideal S1024x128 .f32)
    (r : Fin 1024) (cc : Fin 128) :
    k1_pay2 (F := Ideal) v6 v8 v10 (ix2 r cc) = v10 (ix2 r cc) + ∑ kk : Fin 2048, v8 (ix2 r kk) * v6 (ix2 kk cc) := by
  unfold k1_pay2
  simp only [shapeCast_self]
  show v10 (ix2 r cc) + FloatOps.matmul (F := Ideal) dot_S1024x2048_S2048x128_S1024x128_1_0_0_1_n_n (some .fp32) v8 v6 (constant S1024x128 .f32 0x00000000#32) (ix2 r cc) = _
  rw [Ideal.matmul_constant_zero_apply, ← Equiv.sum_comp (contrEquiv1 dot_S1024x2048_S2048x128_S1024x128_1_0_0_1_n_n 2048 rfl rfl).symm]
  refine congrArg (v10 (ix2 r cc) + ·) (Finset.sum_congr rfl fun k _ => ?_)
  have hk := contrEquiv1_symm_val dot_S1024x2048_S2048x128_S1024x128_1_0_0_1_n_n 2048 rfl rfl k
  have el : dot_S1024x2048_S2048x128_S1024x128_1_0_0_1_n_n.lhsIdx (ix2 r cc) ((contrEquiv1 dot_S1024x2048_S2048x128_S1024x128_1_0_0_1_n_n 2048 rfl rfl).symm k) = ix2 r k := funext fun a => Fin.ext (by
    match a with
    | ⟨0, _⟩ => exact lhs_row _ _
    | ⟨1, _⟩ => exact (lhs_col _ _).trans hk)
  have er : dot_S1024x2048_S2048x128_S1024x128_1_0_0_1_n_n.rhsIdx (ix2 r cc) ((contrEquiv1 dot_S1024x2048_S2048x128_S1024x128_1_0_0_1_n_n 2048 rfl rfl).symm k) = ix2 k cc := funext fun a => Fin.ext (by
    match a with
    | ⟨0, _⟩ => exact (rhs_row _ _).trans hk
    | ⟨1, _⟩ => exact rhs_col _ _)
  rw [el, er]

/-- The block the first point stores is zero everywhere. -/
theorem zero_entry (j : S1024x128.Idx) : k1_pay1 (F := Ideal) j = 0 := by
  unfold k1_pay1
  show Ideal.ofBits .f32 0x00000000#32 = 0
  exact Ideal.ofBits_zero_f32

/-! ## Where a point's blocks sit in the arrays -/

section Blocks
variable (V : (c : Dev nD) → (b : Ref sig .tc) → Buf (Elt Ideal) ((c : Thread nD τ).loc b))

/-- The printed index maps over the grid: point t is row block t / 8 and stretch t % 8. -/
theorem where_blocks : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ ((grid1.coords t) 1).val = t.val % 8 :=
  (by decide +kernel : ∀ t : Fin grid1.N, _)

/-- The support matrix as launch 1 finds it, and the feature matrix. -/
abbrev Asup (c : Dev nD) : SNN.Idx → EReal := V c main_arg1
abbrev Bfeat (c : Dev nD) : SND.Idx → EReal := V c main_v0

/-- The support block and the feature block at point t, as arrays of extended reals. -/
abbrev supBlk (c : Dev nD) (t : Fin cfg1.N) : FVec Ideal S1024x2048 .f32 := iblk1 V c 0 t
abbrev featBlk (c : Dev nD) (t : Fin cfg1.N) : FVec Ideal S16384x128 .f32 := iblk1 V c 1 t

/-- The 2048 rows of the feature block the body loads at point t. -/
abbrev loaded (c : Dev nD) (t : Fin cfg1.N) : FVec Ideal S2048x128 .f32 :=
  View.ld (Val := Elt Ideal) (e' := .f32) (featBlk V c t)
    (Rect.unit (s := S16384x128) (k1_off1 (grid1.coords t)) S2048x128.size (k1_off1_inb (grid1.coords t)))

/-- Entry (r, kk) of the support block at point t is support entry (1024·(t / 8) + r, 2048·(t % 8) + kk). -/
theorem support_block (c : Dev nD) (t : Fin cfg1.N) (r : Fin 1024) (kk : Fin 2048) (hr : 1024 * (t.val / 8) + r.val < 16384)
    (hk : 2048 * (t.val % 8) + kk.val < 16384) :
    supBlk V c t (ix2 r kk)
      = Asup V c (ix2 ⟨1024 * (t.val / 8) + r.val, hr⟩ ⟨2048 * (t.val % 8) + kk.val, hk⟩) := by
  obtain ⟨e0, e1, -, -, -, -, -⟩ := where_blocks t
  unfold supBlk iblk1
  rw [View.read_apply]
  show V c main_arg1 _ = V c main_arg1 _
  refine congrArg (V c main_arg1) (funext fun a => Fin.ext ?_)
  match a with
  | ⟨0, _⟩ => show win1_0.index t (0 : Fin 2) * 1024 + 1 * r.val = 1024 * (t.val / 8) + r.val; rw [e0]; omega
  | ⟨1, _⟩ => show win1_0.index t (1 : Fin 2) * 2048 + 1 * kk.val = 2048 * (t.val % 8) + kk.val; rw [e1]; omega

/-- The feature window's one block is the whole feature matrix, and the body loads from it the 2048 rows from
    2048·(t % 8): entry (kk, cc) of the load is feature entry (2048·(t % 8) + kk, cc). -/
theorem feature_stretch (c : Dev nD) (t : Fin cfg1.N) (kk : Fin 2048) (cc : Fin 128) (hk : 2048 * (t.val % 8) + kk.val < 16384) :
    loaded V c t (ix2 kk cc)
      = Bfeat V c (ix2 ⟨2048 * (t.val % 8) + kk.val, hk⟩ cc) := by
  obtain ⟨-, -, e2, e3, -, -, e6⟩ := where_blocks t
  have ho := k1_off1_eq (grid1.coords t)
  unfold loaded featBlk iblk1
  show V c main_v0 _ = V c main_v0 _
  refine congrArg (V c main_v0) (funext fun a => Fin.ext ?_)
  match a with
  | ⟨0, _⟩ =>
    show win1_1.index t (0 : Fin 2) * 16384 + 1 * (k1_off1 (grid1.coords t) 0 + 1 * kk.val) = 2048 * (t.val % 8) + kk.val
    rw [e2, ho]; show 0 * 16384 + 1 * (2048 * ((grid1.coords t) 1).val + 1 * kk.val) = _; rw [e6]; omega
  | ⟨1, _⟩ =>
    show win1_1.index t (1 : Fin 2) * 128 + 1 * (k1_off1 (grid1.coords t) 1 + 1 * cc.val) = cc.val
    rw [e3, ho]; show 0 * 128 + 1 * (0 + 1 * cc.val) = _; omega

/-- What a point adds to entry (r, cc) of its block is that entry's stretch t % 8 of the product. -/
theorem added_stretch (c : Dev nD) (t : Fin cfg1.N) (r : Fin 1024) (cc : Fin 128) (hr : 1024 * (t.val / 8) + r.val < 16384) :
    ∑ kk : Fin 2048, supBlk V c t (ix2 r kk)
        * loaded V c t (ix2 kk cc)
      = stretch (Asup V c) (Bfeat V c) ⟨1024 * (t.val / 8) + r.val, hr⟩ cc (t.val % 8) := by
  have h8 : t.val % 8 < 8 := Nat.mod_lt _ (by decide)
  unfold stretch
  rw [dif_pos h8]
  refine Finset.sum_congr rfl fun kk _ => ?_
  have hk : 2048 * (t.val % 8) + kk.val < 16384 := by have := kk.isLt; omega
  rw [support_block V c t r kk hr hk, feature_stretch V c t kk cc hk]

/-! ## The block after each point -/

/-- After point n the block holds, at (r, cc), the first n % 8 + 1 stretches of product entry (1024·(n / 8) + r, cc). -/
theorem block_after (c : Dev nD) : ∀ (n : ℕ) (hn : n < cfg1.N) (r : Fin 1024) (cc : Fin 128) (hr : 1024 * (n / 8) + r.val < 16384),
    outsAt1 V c n hn (ix2 r cc) = upTo (Asup V c) (Bfeat V c) ⟨1024 * (n / 8) + r.val, hr⟩ cc (n % 8 + 1)
  | 0, hn, r, cc, hr => by
    rw [outsAt1_A V c ⟨0, hn⟩ rfl, first_point]
    refine (sum_entry _ _ _ r cc).trans ?_
    rw [zero_entry, zero_add]
    refine (added_stretch V c ⟨0, hn⟩ r cc hr).trans ?_
    exact (upTo_one _ _ _ _).symm
  | n + 1, hn, r, cc, hr => by
    have hN : n + 1 < 128 := lt_of_lt_of_eq hn (show cfg1.N = 128 from N_1)
    by_cases h0 : (n + 1) % 8 = 0
    · rw [outsAt1_A V c ⟨n + 1, hn⟩ h0, first_point]
      refine (sum_entry _ _ _ r cc).trans ?_
      rw [zero_entry, zero_add]
      refine (added_stretch V c ⟨n + 1, hn⟩ r cc hr).trans ?_
      show stretch _ _ _ _ ((n + 1) % 8) = upTo _ _ _ _ ((n + 1) % 8 + 1)
      rw [h0]; exact (upTo_one _ _ _ _).symm
    · have hq : (n + 1) / 8 = n / 8 := by omega
      have hm : (n + 1) % 8 = n % 8 + 1 := by omega
      have hr' : 1024 * (n / 8) + r.val < 16384 := by omega
      have hrow : (⟨1024 * ((n + 1) / 8) + r.val, hr⟩ : Fin 16384) = ⟨1024 * (n / 8) + r.val, hr'⟩ :=
        Fin.ext (by show 1024 * ((n + 1) / 8) + r.val = 1024 * (n / 8) + r.val; rw [hq])
      have ih := block_after c n (Nat.lt_of_succ_lt hn) r cc hr'
      rw [outsAt1_B V c ⟨n + 1, hn⟩ h0, later_point]
      refine (sum_entry _ _ _ r cc).trans ?_
      refine (congrArg₂ (· + ·) ih (added_stretch V c ⟨n + 1, hn⟩ r cc hr)).trans ?_
      show upTo _ _ _ _ (n % 8 + 1) + stretch _ _ _ _ ((n + 1) % 8) = _
      rw [hrow, hm, ← upTo_succ]

/-! ## The result array after the launch -/

/-- What the launch leaves in its result array: the product. -/
def result (c : Dev nD) : SND.Idx → EReal := prod (Asup V c) (Bfeat V c)

set_option maxRecDepth 400000 in
/-- The block a point writes back (the last point of its row block) is the result on that block's rows. -/
theorem written_back (c : Dev nD) (t : Fin cfg1.N) (hf : (cfg1.win 2).flush t = true) :
    (dat1 V c).flushed 2 t = ((cfg1.win 2).blk t).view.read (Elt Ideal) (result V c) := by
  have h7 : t.val % 8 = 7 := (flush1_2 t).mp hf
  have hN : t.val < 128 := lt_of_lt_of_eq t.isLt (show cfg1.N = 128 from N_1)
  obtain ⟨-, -, -, -, e4, e5, -⟩ := where_blocks t
  show (cfg1.win 2).cut (grid1.coords t) ((dat1 V c).after 2 t) = _
  rw [after1_2]
  funext j
  have hj0 : (j 0).val < 1024 := (j 0).isLt
  have hj1 : (j 1).val < 128 := (j 1).isLt
  have hr : 1024 * (t.val / 8) + (j 0).val < 16384 := by omega
  show outsAt1 V c t.val t.isLt j = result V c (((cfg1.win 2).blk t).view.emb j)
  have hjx : j = ix2 (⟨(j 0).val, hj0⟩ : Fin 1024) (⟨(j 1).val, hj1⟩ : Fin 128) := funext fun a => by
    match a with
    | ⟨0, _⟩ => rfl
    | ⟨1, _⟩ => rfl
  refine ((congrArg (outsAt1 V c t.val t.isLt) hjx).trans (block_after V c t.val t.isLt ⟨(j 0).val, hj0⟩ ⟨(j 1).val, hj1⟩ hr)).trans ?_
  rw [h7, upTo_eight]
  have e0 : (((cfg1.win 2).blk t).view.emb j) 0 = (⟨1024 * (t.val / 8) + (j 0).val, hr⟩ : Fin 16384) := Fin.ext (by
    show win1_2.index t (0 : Fin 2) * 1024 + 1 * (j 0).val = 1024 * (t.val / 8) + (j 0).val; rw [e4]; omega)
  have e1 : (((cfg1.win 2).blk t).view.emb j) 1 = (⟨(j 1).val, hj1⟩ : Fin 128) := Fin.ext (by
    show win1_2.index t (1 : Fin 2) * 128 + 1 * (j 1).val = (j 1).val; rw [e5]; omega)
  show _ = mm (Asup V c) (Bfeat V c) ((((cfg1.win 2).blk t).view.emb j) 0) ((((cfg1.win 2).blk t).view.emb j) 1)
  rw [e0, e1]

/-- Every index of the result array lies in the block written back at the last point of its row block. -/
theorem all_covered (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  have hN : cfg1.N = 128 := N_1
  let t : Fin cfg1.N := ⟨8 * ((i 0).val / 1024) + 7, by rw [hN]; omega⟩
  have htv : t.val = 8 * ((i 0).val / 1024) + 7 := rfl
  obtain ⟨-, -, -, -, e4, e5, -⟩ := where_blocks t
  refine ⟨t, (flush1_2 t).mpr (by rw [htv]; omega), ?_⟩
  show i ∈ ((View.whole main_v1).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4, htv]; omega
  | ⟨1, _⟩ =>
    show win1_2.index t (1 : Fin 2) * 128 ≤ (i 1).val ∧ (i 1).val < win1_2.index t (1 : Fin 2) * 128 + 128
    rw [e5]; omega

/-- So the result array ends holding the product. -/
theorem array_after (c : Dev nD) : (dat1 V c).arrAt 2 cfg1.N = result V c :=
  (dat1 V c).arrAt_eq_of_cover 2 (result V c) (written_back V c) all_covered

end Blocks

end Cert.KernelIdeal.Diffuse1

end
-- ==== Proof.Diffuse2.lean ====
import proofs.«119138_j31550829756529_2_alg».proof.Proof.Gen.KernelIdeal.Frame
import proofs.«119138_j31550829756529_2_alg».proof.Proof.BlockSum
import Idealize.ShloMosaic.Lib.Pipeline.Value
import Idealize.ShloMosaic.Lib.ValueIdx
import Idealize.ShloMosaic.PureOps.Ideal.Laws
import Idealize.ShloMosaic.Lib.Tactic

/-!
Launch 2 of the idealized kernel multiplies the 16384 × 16384 support matrix A by the feature matrix B
it finds in memory.  Its grid has 16 × 8 points: point t works on the 1024 rows from 1024·(t / 8)
and on the 2048 values of the summation index from 2048·(t % 8).  At the first point of a row block the
output block is set to zero; every point adds its stretch of the sum.  So after point t the block
holds the sum of the first t % 8 + 1 stretches, and the block written back, after the eighth stretch, is the
whole product on its rows.  The sixteen written-back blocks tile the result array.
-/

set_option maxRecDepth 16384

noncomputable section

namespace Cert.KernelIdeal.Diffuse2

open Cert.KernelIdeal Cert.KernelIdeal.Gen Cert.Diffuse
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What one point leaves in the output block, as the body's arithmetic -/

section AnyValues
variable {F : FTy → Type} [FloatOps F]

/-- A point that is not the first of its row block leaves, over the block's contents xo, the body's sum
    of xo and the product of the support block with the stretch of the feature matrix it loads. -/
theorem later_point (c : Dev nD) (i : grid2.Coords) (a2 : Memref sig .tc .vmem S1024x2048 .f32) (h2 : a2.IsWhole)
    (a3 : Memref sig .tc .vmem S16384x128 .f32) (h3 : a3.IsWhole) (a4 : Memref sig .tc .vmem S1024x128 .f32) (h4 : a4.IsWhole)
    (hc : ¬cond2_0 i) (x0 : Vec F S1024x2048 .f32) (x1 : Vec F S16384x128 .f32) (xo : Vec F S1024x128 .f32) :
    out2_B_2 c i a2 h2 a3 h3 a4 h4 hc x0 x1 xo
      = k2_pay2 (View.ld x1 (Rect.unit (s := S16384x128) (k2_off1 i) S2048x128.size (k2_off1_inb i))) x0 xo := by
  unfold out2_B_2
  rw [View.read_writes_eq_canon _ _ _ (cover2_B_2 c i a2 h2 a3 h3 a4 h4 hc x0 x1 xo)]
  unfold kernelRun2_B
  dsimp only
  rw [View.canon_unit_zero hz]
  simp only [View.readAt_eq_ld, h2.read_unread, h3.read_unread, h4.read_unread, View.ld_unit_zero (S := S1024x2048) hz,
    View.ld_unit_zero (S := S1024x128) hz]

/-- The first point of a row block stores the zero block, reads it back, and leaves the same sum over it. -/
theorem first_point (c : Dev nD) (i : grid2.Coords) (a2 : Memref sig .tc .vmem S1024x2048 .f32) (h2 : a2.IsWhole)
    (a3 : Memref sig .tc .vmem S16384x128 .f32) (h3 : a3.IsWhole) (a4 : Memref sig .tc .vmem S1024x128 .f32) (h4 : a4.IsWhole)
    (hc : cond2_0 i) (x0 : Vec F S1024x2048 .f32) (x1 : Vec F S16384x128 .f32) :
    out2_A_2 c i a2 h2 a3 h3 a4 h4 hc x0 x1
      = k2_pay2 (View.ld x1 (Rect.unit (s := S16384x128) (k2_off1 i) S2048x128.size (k2_off1_inb i))) x0 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x2048) hz]

end AnyValues

/-! ## The body's arithmetic at one entry, over the extended reals -/

theorem lhs_row (j : S1024x128.Idx) (q : dot_S1024x2048_S2048x128_S1024x128_1_0_0_1_n_n.contr.Idx) : (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_col (j : S1024x128.Idx) (q : dot_S1024x2048_S2048x128_S1024x128_1_0_0_1_n_n.contr.Idx) : (dot_S1024x2048_S2048x128_S1024x128_1_0_0_1_n_n.lhsIdx j q 1).val = (q ⟨0, by decide⟩).val :=
  dot_S1024x2048_S2048x128_S1024x128_1_0_0_1_n_n.lhsIdx_val_of_single rfl j q
theorem rhs_row (j : S1024x128.Idx) (q : dot_S1024x2048_S2048x128_S1024x128_1_0_0_1_n_n.contr.Idx) : (dot_S1024x2048_S2048x128_S1024x128_1_0_0_1_n_n.rhsIdx j q 0).val = (q ⟨0, by decide⟩).val :=
  dot_S1024x2048_S2048x128_S1024x128_1_0_0_1_n_n.rhsIdx_val_of_single rfl j q
theorem rhs_col (j : S1024x128.Idx) (q : dot_S1024x2048_S2048x128_S1024x128_1_0_0_1_n_n.contr.Idx) : (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Entry (r, cc) of the body's sum: the old entry plus the sum, over the 2048 loaded values of the summation
    index, of support entry (r, kk) times feature entry (kk, cc). -/
theorem sum_entry (v6 : FVec Ideal S2048x128 .f32) (v8 : FVec Ideal S1024x2048 .f32) (v10 : FVec Ideal S1024x128 .f32)
    (r : Fin 1024) (cc : Fin 128) :
    k2_pay2 (F := Ideal) v6 v8 v10 (ix2 r cc) = v10 (ix2 r cc) + ∑ kk : Fin 2048, v8 (ix2 r kk) * v6 (ix2 kk cc) := by
  unfold k2_pay2
  simp only [shapeCast_self]
  show v10 (ix2 r cc) + FloatOps.matmul (F := Ideal) dot_S1024x2048_S2048x128_S1024x128_1_0_0_1_n_n (some .fp32) v8 v6 (constant S1024x128 .f32 0x00000000#32) (ix2 r cc) = _
  rw [Ideal.matmul_constant_zero_apply, ← Equiv.sum_comp (contrEquiv1 dot_S1024x2048_S2048x128_S1024x128_1_0_0_1_n_n 2048 rfl rfl).symm]
  refine congrArg (v10 (ix2 r cc) + ·) (Finset.sum_congr rfl fun k _ => ?_)
  have hk := contrEquiv1_symm_val dot_S1024x2048_S2048x128_S1024x128_1_0_0_1_n_n 2048 rfl rfl k
  have el : dot_S1024x2048_S2048x128_S1024x128_1_0_0_1_n_n.lhsIdx (ix2 r cc) ((contrEquiv1 dot_S1024x2048_S2048x128_S1024x128_1_0_0_1_n_n 2048 rfl rfl).symm k) = ix2 r k := funext fun a => Fin.ext (by
    match a with
    | ⟨0, _⟩ => exact lhs_row _ _
    | ⟨1, _⟩ => exact (lhs_col _ _).trans hk)
  have er : dot_S1024x2048_S2048x128_S1024x128_1_0_0_1_n_n.rhsIdx (ix2 r cc) ((contrEquiv1 dot_S1024x2048_S2048x128_S1024x128_1_0_0_1_n_n 2048 rfl rfl).symm k) = ix2 k cc := funext fun a => Fin.ext (by
    match a with
    | ⟨0, _⟩ => exact (rhs_row _ _).trans hk
    | ⟨1, _⟩ => exact rhs_col _ _)
  rw [el, er]

/-- The block the first point stores is zero everywhere. -/
theorem zero_entry (j : S1024x128.Idx) : k2_pay1 (F := Ideal) j = 0 := by
  unfold k2_pay1
  show Ideal.ofBits .f32 0x00000000#32 = 0
  exact Ideal.ofBits_zero_f32

/-! ## Where a point's blocks sit in the arrays -/

section Blocks
variable (V : (c : Dev nD) → (b : Ref sig .tc) → Buf (Elt Ideal) ((c : Thread nD τ).loc b))

/-- The printed index maps over the grid: point t is row block t / 8 and stretch t % 8. -/
theorem where_blocks : ∀ t : Fin cfg2.N, win2_0.index t (0 : Fin 2) = t.val / 8 ∧ win2_0.index t (1 : Fin 2) = t.val % 8
    ∧ win2_1.index t (0 : Fin 2) = 0 ∧ win2_1.index t (1 : Fin 2) = 0
    ∧ win2_2.index t (0 : Fin 2) = t.val / 8 ∧ win2_2.index t (1 : Fin 2) = 0
    ∧ ((grid2.coords t) 1).val = t.val % 8 :=
  (by decide +kernel : ∀ t : Fin grid2.N, _)

/-- The support matrix as launch 2 finds it, and the feature matrix. -/
abbrev Asup (c : Dev nD) : SNN.Idx → EReal := V c main_arg1
abbrev Bfeat (c : Dev nD) : SND.Idx → EReal := V c main_v1

/-- The support block and the feature block at point t, as arrays of extended reals. -/
abbrev supBlk (c : Dev nD) (t : Fin cfg2.N) : FVec Ideal S1024x2048 .f32 := iblk2 V c 0 t
abbrev featBlk (c : Dev nD) (t : Fin cfg2.N) : FVec Ideal S16384x128 .f32 := iblk2 V c 1 t

/-- The 2048 rows of the feature block the body loads at point t. -/
abbrev loaded (c : Dev nD) (t : Fin cfg2.N) : FVec Ideal S2048x128 .f32 :=
  View.ld (Val := Elt Ideal) (e' := .f32) (featBlk V c t)
    (Rect.unit (s := S16384x128) (k2_off1 (grid2.coords t)) S2048x128.size (k2_off1_inb (grid2.coords t)))

/-- Entry (r, kk) of the support block at point t is support entry (1024·(t / 8) + r, 2048·(t % 8) + kk). -/
theorem support_block (c : Dev nD) (t : Fin cfg2.N) (r : Fin 1024) (kk : Fin 2048) (hr : 1024 * (t.val / 8) + r.val < 16384)
    (hk : 2048 * (t.val % 8) + kk.val < 16384) :
    supBlk V c t (ix2 r kk)
      = Asup V c (ix2 ⟨1024 * (t.val / 8) + r.val, hr⟩ ⟨2048 * (t.val % 8) + kk.val, hk⟩) := by
  obtain ⟨e0, e1, -, -, -, -, -⟩ := where_blocks t
  unfold supBlk iblk2
  rw [View.read_apply]
  show V c main_arg1 _ = V c main_arg1 _
  refine congrArg (V c main_arg1) (funext fun a => Fin.ext ?_)
  match a with
  | ⟨0, _⟩ => show win2_0.index t (0 : Fin 2) * 1024 + 1 * r.val = 1024 * (t.val / 8) + r.val; rw [e0]; omega
  | ⟨1, _⟩ => show win2_0.index t (1 : Fin 2) * 2048 + 1 * kk.val = 2048 * (t.val % 8) + kk.val; rw [e1]; omega

/-- The feature window's one block is the whole feature matrix, and the body loads from it the 2048 rows from
    2048·(t % 8): entry (kk, cc) of the load is feature entry (2048·(t % 8) + kk, cc). -/
theorem feature_stretch (c : Dev nD) (t : Fin cfg2.N) (kk : Fin 2048) (cc : Fin 128) (hk : 2048 * (t.val % 8) + kk.val < 16384) :
    loaded V c t (ix2 kk cc)
      = Bfeat V c (ix2 ⟨2048 * (t.val % 8) + kk.val, hk⟩ cc) := by
  obtain ⟨-, -, e2, e3, -, -, e6⟩ := where_blocks t
  have ho := k2_off1_eq (grid2.coords t)
  unfold loaded featBlk iblk2
  show V c main_v1 _ = V c main_v1 _
  refine congrArg (V c main_v1) (funext fun a => Fin.ext ?_)
  match a with
  | ⟨0, _⟩ =>
    show win2_1.index t (0 : Fin 2) * 16384 + 1 * (k2_off1 (grid2.coords t) 0 + 1 * kk.val) = 2048 * (t.val % 8) + kk.val
    rw [e2, ho]; show 0 * 16384 + 1 * (2048 * ((grid2.coords t) 1).val + 1 * kk.val) = _; rw [e6]; omega
  | ⟨1, _⟩ =>
    show win2_1.index t (1 : Fin 2) * 128 + 1 * (k2_off1 (grid2.coords t) 1 + 1 * cc.val) = cc.val
    rw [e3, ho]; show 0 * 128 + 1 * (0 + 1 * cc.val) = _; omega

/-- What a point adds to entry (r, cc) of its block is that entry's stretch t % 8 of the product. -/
theorem added_stretch (c : Dev nD) (t : Fin cfg2.N) (r : Fin 1024) (cc : Fin 128) (hr : 1024 * (t.val / 8) + r.val < 16384) :
    ∑ kk : Fin 2048, supBlk V c t (ix2 r kk)
        * loaded V c t (ix2 kk cc)
      = stretch (Asup V c) (Bfeat V c) ⟨1024 * (t.val / 8) + r.val, hr⟩ cc (t.val % 8) := by
  have h8 : t.val % 8 < 8 := Nat.mod_lt _ (by decide)
  unfold stretch
  rw [dif_pos h8]
  refine Finset.sum_congr rfl fun kk _ => ?_
  have hk : 2048 * (t.val % 8) + kk.val < 16384 := by have := kk.isLt; omega
  rw [support_block V c t r kk hr hk, feature_stretch V c t kk cc hk]

/-! ## The block after each point -/

/-- After point n the block holds, at (r, cc), the first n % 8 + 1 stretches of product entry (1024·(n / 8) + r, cc). -/
theorem block_after (c : Dev nD) : ∀ (n : ℕ) (hn : n < cfg2.N) (r : Fin 1024) (cc : Fin 128) (hr : 1024 * (n / 8) + r.val < 16384),
    outsAt2 V c n hn (ix2 r cc) = upTo (Asup V c) (Bfeat V c) ⟨1024 * (n / 8) + r.val, hr⟩ cc (n % 8 + 1)
  | 0, hn, r, cc, hr => by
    rw [outsAt2_A V c ⟨0, hn⟩ rfl, first_point]
    refine (sum_entry _ _ _ r cc).trans ?_
    rw [zero_entry, zero_add]
    refine (added_stretch V c ⟨0, hn⟩ r cc hr).trans ?_
    exact (upTo_one _ _ _ _).symm
  | n + 1, hn, r, cc, hr => by
    have hN : n + 1 < 128 := lt_of_lt_of_eq hn (show cfg2.N = 128 from N_2)
    by_cases h0 : (n + 1) % 8 = 0
    · rw [outsAt2_A V c ⟨n + 1, hn⟩ h0, first_point]
      refine (sum_entry _ _ _ r cc).trans ?_
      rw [zero_entry, zero_add]
      refine (added_stretch V c ⟨n + 1, hn⟩ r cc hr).trans ?_
      show stretch _ _ _ _ ((n + 1) % 8) = upTo _ _ _ _ ((n + 1) % 8 + 1)
      rw [h0]; exact (upTo_one _ _ _ _).symm
    · have hq : (n + 1) / 8 = n / 8 := by omega
      have hm : (n + 1) % 8 = n % 8 + 1 := by omega
      have hr' : 1024 * (n / 8) + r.val < 16384 := by omega
      have hrow : (⟨1024 * ((n + 1) / 8) + r.val, hr⟩ : Fin 16384) = ⟨1024 * (n / 8) + r.val, hr'⟩ :=
        Fin.ext (by show 1024 * ((n + 1) / 8) + r.val = 1024 * (n / 8) + r.val; rw [hq])
      have ih := block_after c n (Nat.lt_of_succ_lt hn) r cc hr'
      rw [outsAt2_B V c ⟨n + 1, hn⟩ h0, later_point]
      refine (sum_entry _ _ _ r cc).trans ?_
      refine (congrArg₂ (· + ·) ih (added_stretch V c ⟨n + 1, hn⟩ r cc hr)).trans ?_
      show upTo _ _ _ _ (n % 8 + 1) + stretch _ _ _ _ ((n + 1) % 8) = _
      rw [hrow, hm, ← upTo_succ]

/-! ## The result array after the launch -/

/-- What the launch leaves in its result array: the product. -/
def result (c : Dev nD) : SND.Idx → EReal := prod (Asup V c) (Bfeat V c)

set_option maxRecDepth 400000 in
/-- The block a point writes back (the last point of its row block) is the result on that block's rows. -/
theorem written_back (c : Dev nD) (t : Fin cfg2.N) (hf : (cfg2.win 2).flush t = true) :
    (dat2 V c).flushed 2 t = ((cfg2.win 2).blk t).view.read (Elt Ideal) (result V c) := by
  have h7 : t.val % 8 = 7 := (flush2_2 t).mp hf
  have hN : t.val < 128 := lt_of_lt_of_eq t.isLt (show cfg2.N = 128 from N_2)
  obtain ⟨-, -, -, -, e4, e5, -⟩ := where_blocks t
  show (cfg2.win 2).cut (grid2.coords t) ((dat2 V c).after 2 t) = _
  rw [after2_2]
  funext j
  have hj0 : (j 0).val < 1024 := (j 0).isLt
  have hj1 : (j 1).val < 128 := (j 1).isLt
  have hr : 1024 * (t.val / 8) + (j 0).val < 16384 := by omega
  show outsAt2 V c t.val t.isLt j = result V c (((cfg2.win 2).blk t).view.emb j)
  have hjx : j = ix2 (⟨(j 0).val, hj0⟩ : Fin 1024) (⟨(j 1).val, hj1⟩ : Fin 128) := funext fun a => by
    match a with
    | ⟨0, _⟩ => rfl
    | ⟨1, _⟩ => rfl
  refine ((congrArg (outsAt2 V c t.val t.isLt) hjx).trans (block_after V c t.val t.isLt ⟨(j 0).val, hj0⟩ ⟨(j 1).val, hj1⟩ hr)).trans ?_
  rw [h7, upTo_eight]
  have e0 : (((cfg2.win 2).blk t).view.emb j) 0 = (⟨1024 * (t.val / 8) + (j 0).val, hr⟩ : Fin 16384) := Fin.ext (by
    show win2_2.index t (0 : Fin 2) * 1024 + 1 * (j 0).val = 1024 * (t.val / 8) + (j 0).val; rw [e4]; omega)
  have e1 : (((cfg2.win 2).blk t).view.emb j) 1 = (⟨(j 1).val, hj1⟩ : Fin 128) := Fin.ext (by
    show win2_2.index t (1 : Fin 2) * 128 + 1 * (j 1).val = (j 1).val; rw [e5]; omega)
  show _ = mm (Asup V c) (Bfeat V c) ((((cfg2.win 2).blk t).view.emb j) 0) ((((cfg2.win 2).blk t).view.emb j) 1)
  rw [e0, e1]

/-- Every index of the result array lies in the block written back at the last point of its row block. -/
theorem all_covered (i : S16384x128.Idx) : ∃ t : Fin cfg2.N, (cfg2.win 2).flush t = true ∧ i ∈ ((cfg2.win 2).blk t).view.set := by
  have hi0 : (i 0).val < 16384 := (i 0).isLt
  have hi1 : (i 1).val < 128 := (i 1).isLt
  have hN : cfg2.N = 128 := N_2
  let t : Fin cfg2.N := ⟨8 * ((i 0).val / 1024) + 7, by rw [hN]; omega⟩
  have htv : t.val = 8 * ((i 0).val / 1024) + 7 := rfl
  obtain ⟨-, -, -, -, e4, e5, -⟩ := where_blocks t
  refine ⟨t, (flush2_2 t).mpr (by rw [htv]; omega), ?_⟩
  show i ∈ ((View.whole main_v2).slice (win2_2.rect t)).set
  rw [View.set_slice_whole, Rect.mem_set_unit]
  intro a
  match a with
  | ⟨0, _⟩ =>
    show win2_2.index t (0 : Fin 2) * 1024 ≤ (i 0).val ∧ (i 0).val < win2_2.index t (0 : Fin 2) * 1024 + 1024
    rw [e4, htv]; omega
  | ⟨1, _⟩ =>
    show win2_2.index t (1 : Fin 2) * 128 ≤ (i 1).val ∧ (i 1).val < win2_2.index t (1 : Fin 2) * 128 + 128
    rw [e5]; omega

/-- So the result array ends holding the product. -/
theorem array_after (c : Dev nD) : (dat2 V c).arrAt 2 cfg2.N = result V c :=
  (dat2 V c).arrAt_eq_of_cover 2 (result V c) (written_back V c) all_covered

end Blocks

end Cert.KernelIdeal.Diffuse2

end
-- ==== Proof.Diffuse3.lean ====
import proofs.«119138_j31550829756529_2_alg».proof.Proof.Gen.KernelIdeal.Frame
import proofs.«119138_j31550829756529_2_alg».proof.Proof.BlockSum
import Idealize.ShloMosaic.Lib.Pipeline.Value
import Idealize.ShloMosaic.Lib.ValueIdx
import Idealize.ShloMosaic.PureOps.Ideal.Laws
import Idealize.ShloMosaic.Lib.Tactic

/-!
Launch 3 of the idealized kernel multiplies the 16384 × 16384 support matrix A by the feature matrix B
it finds in memory, and clamps the product below at zero.  Its grid has 16 × 8 points: point t works on the 1024 rows from 1024·(t / 8)
and on the 2048 values of the summation index from 2048·(t % 8).  At the first point of a row block the
output block is set to zero; every point adds its stretch of the sum; the last point of a row block then takes the maximum with zero.  So after point t the block
holds the sum of the first t % 8 + 1 stretches, and the block written back, after the eighth stretch, is the
whole product clamped at zero on its rows.  The sixteen written-back blocks tile the result array.
-/

set_option maxRecDepth 16384

noncomputable section

namespace Cert.KernelIdeal.Diffuse3

open Cert.KernelIdeal Cert.KernelIdeal.Gen Cert.Diffuse
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What one point leaves in the output block, as the body's arithmetic -/

section AnyValues
variable {F : FTy → Type} [FloatOps F]

/-- A point that is not the first of its row block leaves, over the block's contents xo, the body's sum
    of xo and the product of the support block with the stretch of the feature matrix it loads. -/
theorem later_point (c : Dev nD) (i : grid3.Coords) (a2 : Memref sig .tc .vmem S1024x2048 .f32) (h2 : a2.IsWhole)
    (a3 : Memref sig .tc .vmem S16384x128 .f32) (h3 : a3.IsWhole) (a4 : Memref sig .tc .vmem S1024x128 .f32) (h4 : a4.IsWhole)
    (hc : ¬cond3_0 i) (hd : ¬cond3_1 i) (x0 : Vec F S1024x2048 .f32) (x1 : Vec F S16384x128 .f32) (xo : Vec F S1024x128 .f32) :
    out3_B_2 c i a2 h2 a3 h3 a4 h4 hc hd x0 x1 xo
      = k3_pay2 (View.ld x1 (Rect.unit (s := S16384x128) (k3_off1 i) S2048x128.size (k3_off1_inb i))) x0 xo := by
  unfold out3_B_2
  rw [View.read_writes_eq_canon _ _ _ (cover3_B_2 c i a2 h2 a3 h3 a4 h4 hc hd x0 x1 xo)]
  unfold kernelRun3_B
  dsimp only
  rw [View.canon_unit_zero hz]
  simp only [View.readAt_eq_ld, h2.read_unread, h3.read_unread, h4.read_unread, View.ld_unit_zero (S := S1024x2048) hz,
    View.ld_unit_zero (S := S1024x128) hz]

/-- The first point of a row block stores the zero block, reads it back, and leaves the same sum over it. -/
theorem first_point (c : Dev nD) (i : grid3.Coords) (a2 : Memref sig .tc .vmem S1024x2048 .f32) (h2 : a2.IsWhole)
    (a3 : Memref sig .tc .vmem S16384x128 .f32) (h3 : a3.IsWhole) (a4 : Memref sig .tc .vmem S1024x128 .f32) (h4 : a4.IsWhole)
    (hc : cond3_0 i) (hd : ¬cond3_1 i) (x0 : Vec F S1024x2048 .f32) (x1 : Vec F S16384x128 .f32) :
    out3_A_2 c i a2 h2 a3 h3 a4 h4 hc hd x0 x1
      = k3_pay2 (View.ld x1 (Rect.unit (s := S16384x128) (k3_off1 i) S2048x128.size (k3_off1_inb i))) x0 (k3_pay1 (F := F)) := by
  unfold out3_A_2
  rw [View.read_writes_eq_canon _ _ _ (cover3_A_2 c i a2 h2 a3 h3 a4 h4 hc hd x0 x1)]
  unfold kernelRun3_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x2048) hz]

/-- The last point of a row block adds its stretch to xo, reads the sum back and leaves its maximum with zero. -/
theorem last_point (c : Dev nD) (i : grid3.Coords) (a2 : Memref sig .tc .vmem S1024x2048 .f32) (h2 : a2.IsWhole)
    (a3 : Memref sig .tc .vmem S16384x128 .f32) (h3 : a3.IsWhole) (a4 : Memref sig .tc .vmem S1024x128 .f32) (h4 : a4.IsWhole)
    (hc : ¬cond3_0 i) (hd : cond3_1 i) (x0 : Vec F S1024x2048 .f32) (x1 : Vec F S16384x128 .f32) (xo : Vec F S1024x128 .f32) :
    out3_C_2 c i a2 h2 a3 h3 a4 h4 hc hd x0 x1 xo
      = k3_pay3 (k3_pay2 (View.ld x1 (Rect.unit (s := S16384x128) (k3_off1 i) S2048x128.size (k3_off1_inb i))) x0 xo) := by
  unfold out3_C_2
  rw [View.read_writes_eq_canon _ _ _ (cover3_C_2 c i a2 h2 a3 h3 a4 h4 hc hd x0 x1 xo)]
  unfold kernelRun3_C
  dsimp only
  sl_unfold_words
  rw [View.canon_cons_unit_zero (S := S1024x128) hz, View.readCov_unit_zero (S := S1024x128) _ hz]
  simp only [View.readAt_eq_ld, h2.read_unread, h3.read_unread, h4.read_unread, View.ld_unit_zero (S := S1024x2048) hz,
    View.ld_unit_zero (S := S1024x128) hz]

end AnyValues

/-! ## The body's arithmetic at one entry, over the extended reals -/

theorem lhs_row (j : S1024x128.Idx) (q : dot_S1024x2048_S2048x128_S1024x128_1_0_0_1_n_n.contr.Idx) : (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_col (j : S1024x128.Idx) (q : dot_S1024x2048_S2048x128_S1024x128_1_0_0_1_n_n.contr.Idx) : (dot_S1024x2048_S2048x128_S1024x128_1_0_0_1_n_n.lhsIdx j q 1).val = (q ⟨0, by decide⟩).val :=
  dot_S1024x2048_S2048x128_S1024x128_1_0_0_1_n_n.lhsIdx_val_of_single rfl j q
theorem rhs_row (j : S1024x128.Idx) (q : dot_S1024x2048_S2048x128_S1024x128_1_0_0_1_n_n.contr.Idx) : (dot_S1024x2048_S2048x128_S1024x128_1_0_0_1_n_n.rhsIdx j q 0).val = (q ⟨0, by decide⟩).val :=
  dot_S1024x2048_S2048x128_S1024x128_1_0_0_1_n_n.rhsIdx_val_of_single rfl j q
theorem rhs_col (j : S1024x128.Idx) (q : dot_S1024x2048_S2048x128_S1024x128_1_0_0_1_n_n.contr.Idx) : (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Entry (r, cc) of the body's sum: the old entry plus the sum, over the 2048 loaded values of the summation
    index, of support entry (r, kk) times feature entry (kk, cc). -/
theorem sum_entry (v6 : FVec Ideal S2048x128 .f32) (v8 : FVec Ideal S1024x2048 .f32) (v10 : FVec Ideal S1024x128 .f32)
    (r : Fin 1024) (cc : Fin 128) :
    k3_pay2 (F := Ideal) v6 v8 v10 (ix2 r cc) = v10 (ix2 r cc) + ∑ kk : Fin 2048, v8 (ix2 r kk) * v6 (ix2 kk cc) := by
  unfold k3_pay2
  simp only [shapeCast_self]
  show v10 (ix2 r cc) + FloatOps.matmul (F := Ideal) dot_S1024x2048_S2048x128_S1024x128_1_0_0_1_n_n (some .fp32) v8 v6 (constant S1024x128 .f32 0x00000000#32) (ix2 r cc) = _
  rw [Ideal.matmul_constant_zero_apply, ← Equiv.sum_comp (contrEquiv1 dot_S1024x2048_S2048x128_S1024x128_1_0_0_1_n_n 2048 rfl rfl).symm]
  refine congrArg (v10 (ix2 r cc) + ·) (Finset.sum_congr rfl fun k _ => ?_)
  have hk := contrEquiv1_symm_val dot_S1024x2048_S2048x128_S1024x128_1_0_0_1_n_n 2048 rfl rfl k
  have el : dot_S1024x2048_S2048x128_S1024x128_1_0_0_1_n_n.lhsIdx (ix2 r cc) ((contrEquiv1 dot_S1024x2048_S2048x128_S1024x128_1_0_0_1_n_n 2048 rfl rfl).symm k) = ix2 r k := funext fun a => Fin.ext (by
    match a with
    | ⟨0, _⟩ => exact lhs_row _ _
    | ⟨1, _⟩ => exact (lhs_col _ _).trans hk)
  have er : dot_S1024x2048_S2048x128_S1024x128_1_0_0_1_n_n.rhsIdx (ix2 r cc) ((contrEquiv1 dot_S1024x2048_S2048x128_S1024x128_1_0_0_1_n_n 2048 rfl rfl).symm k) = ix2 k cc := funext fun a => Fin.ext (by
    match a with
    | ⟨0, _⟩ => exact (rhs_row _ _).trans hk
    | ⟨1, _⟩ => exact rhs_col _ _)
  rw [el, er]

/-- The block the first point stores is zero everywhere. -/
theorem zero_entry (j : S1024x128.Idx) : k3_pay1 (F := Ideal) j = 0 := by
  unfold k3_pay1
  show Ideal.ofBits .f32 0x00000000#32 = 0
  exact Ideal.ofBits_zero_f32

/-- The closing step at an entry: the maximum of the entry and zero. -/
theorem clamp_entry (v : FVec Ideal S1024x128 .f32) (j : S1024x128.Idx) : k3_pay3 (F := Ideal) v j = max (v j) 0 := by
  unfold k3_pay3
  simp only [shapeCast_self]
  show max (v j) (Ideal.ofBits .f32 0x00000000#32) = _
  rw [Ideal.ofBits_zero_f32]

/-! ## Where a point's blocks sit in the arrays -/

section Blocks
variable (V : (c : Dev nD) → (b : Ref sig .tc) → Buf (Elt Ideal) ((c : Thread nD τ).loc b))

/-- The printed index maps over the grid: point t is row block t / 8 and stretch t % 8. -/
theorem where_blocks : ∀ t : Fin cfg3.N, win3_0.index t (0 : Fin 2) = t.val / 8 ∧ win3_0.index t (1 : Fin 2) = t.val % 8
    ∧ win3_1.index t (0 : Fin 2) = 0 ∧ win3_1.index t (1 : Fin 2) = 0
    ∧ win3_2.index t (0 : Fin 2) = t.val / 8 ∧ win3_2.index t (1 : Fin 2) = 0
    ∧ ((grid3.coords t) 1).val = t.val % 8 :=
  (by decide +kernel : ∀ t : Fin grid3.N, _)

/-- The support matrix as launch 3 finds it, and the feature matrix. -/
abbrev Asup (c : Dev nD) : SNN.Idx → EReal := V c main_arg1
abbrev Bfeat (c : Dev nD) : SND.Idx → EReal := V c main_v2

/-- The support block and the feature block at point t, as arrays of extended reals. -/
abbrev supBlk (c : Dev nD) (t : Fin cfg3.N) : FVec Ideal S1024x2048 .f32 := iblk3 V c 0 t
abbrev featBlk (c : Dev nD) (t : Fin cfg3.N) : FVec Ideal S16384x128 .f32 := iblk3 V c 1 t

/-- The 2048 rows of the feature block the body loads at point t. -/
abbrev loaded (c : Dev nD) (t : Fin cfg3.N) : FVec Ideal S2048x128 .f32 :=
  View.ld (Val := Elt Ideal) (e' := .f32) (featBlk V c t)
    (Rect.unit (s := S16384x128) (k3_off1 (grid3.coords t)) S2048x128.size (k3_off1_inb (grid3.coords t)))

/-- Entry (r, kk) of the support block at point t is support entry (1024·(t / 8) + r, 2048·(t % 8) + kk). -/
theorem support_block (c : Dev nD) (t : Fin cfg3.N) (r : Fin 1024) (kk : Fin 2048) (hr : 1024 * (t.val / 8) + r.val < 16384)
    (hk : 2048 * (t.val % 8) + kk.val < 16384) :
    supBlk V c t (ix2 r kk)
      = Asup V c (ix2 ⟨1024 * (t.val / 8) + r.val, hr⟩ ⟨2048 * (t.val % 8) + kk.val, hk⟩) := by
  obtain ⟨e0, e1, -, -, -, -, -⟩ := where_blocks t
  unfold supBlk iblk3
  rw [View.read_apply]
  show V c main_arg1 _ = V c main_arg1 _
  refine congrArg (V c main_arg1) (funext fun a => Fin.ext ?_)
  match a with
  | ⟨0, _⟩ => show win3_0.index t (0 : Fin 2) * 1024 + 1 * r.val = 1024 * (t.val / 8) + r.val; rw [e0]; omega
  | ⟨1, _⟩ => show win3_0.index t (1 : Fin 2) * 2048 + 1 * kk.val = 2048 * (t.val % 8) + kk.val; rw [e1]; omega

/-- The feature window's one block is the whole feature matrix, and the body loads from it the 2048 rows from
    2048·(t % 8): entry (kk, cc) of the load is feature entry (2048·(t % 8) + kk, cc). -/
theorem feature_stretch (c : Dev nD) (t : Fin cfg3.N) (kk : Fin 2048) (cc : Fin 128) (hk : 2048 * (t.val % 8) + kk.val < 16384) :
    loaded V c t (ix2 kk cc)
      = Bfeat V c (ix2 ⟨2048 * (t.val % 8) + kk.val, hk⟩ cc) := by
  obtain ⟨-, -, e2, e3, -, -, e6⟩ := where_blocks t
  have ho := k3_off1_eq (grid3.coords t)
  unfold loaded featBlk iblk3
  show V c main_v2 _ = V c main_v2 _
  refine congrArg (V c main_v2) (funext fun a => Fin.ext ?_)
  match a with
  | ⟨0, _⟩ =>
    show win3_1.index t (0 : Fin 2) * 16384 + 1 * (k3_off1 (grid3.coords t) 0 + 1 * kk.val) = 2048 * (t.val % 8) + kk.val
    rw [e2, ho]; show 0 * 16384 + 1 * (2048 * ((grid3.coords t) 1).val + 1 * kk.val) = _; rw [e6]; omega
  | ⟨1, _⟩ =>
    show win3_1.index t (1 : Fin 2) * 128 + 1 * (k3_off1 (grid3.coords t) 1 + 1 * cc.val) = cc.val
    rw [e3, ho]; show 0 * 128 + 1 * (0 + 1 * cc.val) = _; omega

/-- What a point adds to entry (r, cc) of its block is that entry's stretch t % 8 of the product. -/
theorem added_stretch (c : Dev nD) (t : Fin cfg3.N) (r : Fin 1024) (cc : Fin 128) (hr : 1024 * (t.val / 8) + r.val < 16384) :
    ∑ kk : Fin 2048, supBlk V c t (ix2 r kk)
        * loaded V c t (ix2 kk cc)
      = stretch (Asup V c) (Bfeat V c) ⟨1024 * (t.val / 8) + r.val, hr⟩ cc (t.val % 8) := by
  have h8 : t.val % 8 < 8 := Nat.mod_lt _ (by decide)
  unfold stretch
  rw [dif_pos h8]
  refine Finset.sum_congr rfl fun kk _ => ?_
  have hk : 2048 * (t.val % 8) + kk.val < 16384 := by have := kk.isLt; omega
  rw [support_block V c t r kk hr hk, feature_stretch V c t kk cc hk]

/-! ## The block after each point -/

/-- After point n the block holds, at (r, cc), the first n % 8 + 1 stretches of product entry (1024·(n / 8) + r, cc), clamped at zero once all eight are in. -/
theorem block_after (c : Dev nD) : ∀ (n : ℕ) (hn : n < cfg3.N) (r : Fin 1024) (cc : Fin 128) (hr : 1024 * (n / 8) + r.val < 16384),
    outsAt3 V c n hn (ix2 r cc) = (if n % 8 = 7 then max (upTo (Asup V c) (Bfeat V c) ⟨1024 * (n / 8) + r.val, hr⟩ cc 8) 0 else upTo (Asup V c) (Bfeat V c) ⟨1024 * (n / 8) + r.val, hr⟩ cc (n % 8 + 1))
  | 0, hn, r, cc, hr => by
    rw [outsAt3_A V c ⟨0, hn⟩ rfl (show ¬ (0 : ℕ) % 8 = 7 from by decide), first_point]
    refine (sum_entry _ _ _ r cc).trans ?_
    rw [zero_entry, zero_add]
    refine (added_stretch V c ⟨0, hn⟩ r cc hr).trans ?_
    rw [if_neg (by decide)]
    exact (upTo_one _ _ _ _).symm
  | n + 1, hn, r, cc, hr => by
    have hN : n + 1 < 128 := lt_of_lt_of_eq hn (show cfg3.N = 128 from N_3)
    by_cases h0 : (n + 1) % 8 = 0
    · have h7 : ¬(n + 1) % 8 = 7 := by omega
      rw [outsAt3_A V c ⟨n + 1, hn⟩ h0 h7, first_point]
      refine (sum_entry _ _ _ r cc).trans ?_
      rw [zero_entry, zero_add]
      refine (added_stretch V c ⟨n + 1, hn⟩ r cc hr).trans ?_
      rw [if_neg h7]
      show stretch _ _ _ _ ((n + 1) % 8) = upTo _ _ _ _ ((n + 1) % 8 + 1)
      rw [h0]; exact (upTo_one _ _ _ _).symm
    · have hq : (n + 1) / 8 = n / 8 := by omega
      have hm : (n + 1) % 8 = n % 8 + 1 := by omega
      have hr' : 1024 * (n / 8) + r.val < 16384 := by omega
      have hrow : (⟨1024 * ((n + 1) / 8) + r.val, hr⟩ : Fin 16384) = ⟨1024 * (n / 8) + r.val, hr'⟩ :=
        Fin.ext (by show 1024 * ((n + 1) / 8) + r.val = 1024 * (n / 8) + r.val; rw [hq])
      have ih := block_after c n (Nat.lt_of_succ_lt hn) r cc hr'
      have hp7 : ¬n % 8 = 7 := by omega
      rw [if_neg hp7] at ih
      by_cases h7 : (n + 1) % 8 = 7
      · rw [outsAt3_C V c ⟨n + 1, hn⟩ h0 h7, last_point, clamp_entry]
        rw [if_pos h7]
        refine congrArg (max · 0) ?_
        refine (sum_entry _ _ _ r cc).trans ?_
        refine (congrArg₂ (· + ·) ih (added_stretch V c ⟨n + 1, hn⟩ r cc hr)).trans ?_
        show upTo _ _ _ _ (n % 8 + 1) + stretch _ _ _ _ ((n + 1) % 8) = _
        rw [hrow, hm, ← upTo_succ]
        have e8 : n % 8 + 1 + 1 = 8 := by omega
        rw [e8]
      · rw [outsAt3_B V c ⟨n + 1, hn⟩ h0 h7, later_point]
        rw [if_neg h7]
        refine (sum_entry _ _ _ r cc).trans ?_
        refine (congrArg₂ (· + ·) ih (added_stretch V c ⟨n + 1, hn⟩ r cc hr)).trans ?_
        show upTo _ _ _ _ (n % 8 + 1) + stretch _ _ _ _ ((n + 1) % 8) = _
        rw [hrow, hm, ← upTo_succ]

/-! ## The result array after the launch -/

/-- What the launch leaves in its result array: the product, clamped at zero. -/
def result (c : Dev nD) : SND.Idx → EReal := fun i => max (prod (Asup V c) (Bfeat V c) i) 0

set_option maxRecDepth 400000 in
/-- The block a point writes back (the last point of its row block) is the result on that block's rows. -/
theorem written_back (c : Dev nD) (t : Fin cfg3.N) (hf : (cfg3.win 2).flush t = true) :
    (dat3 V c).flushed 2 t = ((cfg3.win 2).blk t).view.read (Elt Ideal) (result V c) := by
  have h7 : t.val % 8 = 7 := (flush3_2 t).mp hf
  have hN : t.val < 128 := lt_of_lt_of_eq t.isLt (show cfg3.N = 128 from N_3)
  obtain ⟨-, -, -, -, e4, e5, -⟩ := where_blocks t
  show (cfg3.win 2).cut (grid3.coords t) ((dat3 V c).after 2 t) = _
  rw [after3_2]
  funext j
  have hj0 : (j 0).val < 1024 := (j 0).isLt
  have hj1 : (j 1).val < 128 := (j 1).isLt
  have hr : 1024 * (t.val / 8) + (j 0).val < 16384 := by omega
  show outsAt3 V c t.val t.isLt j = result V c (((cfg3.win 2).blk t).view.emb j)
  have hjx : j = ix2 (⟨(j 0).val, hj0⟩ : Fin 1024) (⟨(j 1).val, hj1⟩ : Fin 128) := funext fun a => by
    match a with
    | ⟨0, _⟩ => rfl
    | ⟨1, _⟩ => rfl
  refine ((congrArg (outsAt3 V c t.val t.isLt) hjx).trans (block_after V c t.val t.isLt ⟨(j 0).val, hj0⟩ ⟨(j 1).val, hj1⟩ hr)).trans ?_
  rw [if_pos h7, upTo_eight]
  have e0 : (((cfg3.win 2).blk t).view.emb j) 0 = (⟨1024 * (t.val / 8) + (j 0).val, hr⟩ : Fin 16384) := Fin.ext (by
    show win3_2.index t (0 : Fin 2) * 1024 + 1 * (j 0).val = 1024 * (t.val / 8) + (j 0).val; rw [e4]; omega)
  have e1 : (((cfg3.win 2).blk t).view.emb j) 1 = (⟨(j 1).val, hj1⟩ : Fin 128) := Fin.ext (by
    show win3_2.index t (1 : Fin 2) * 128 + 1 * (j 1).val = (j 1).val; rw [e5]; omega)
  show _ = max (mm (Asup V c) (Bfeat V c) ((((cfg3.win 2).blk t).view.emb j) 0) ((((cfg3.win 2).blk t).view.emb j) 1)) 0
  rw [e0, e1]

/-- Every index of the result array lies in the block written back at the last point of its row block. -/
theorem all_covered (i : S16384x128.Idx) : ∃ t : Fin cfg3.N, (cfg3.win 2).flush t = true ∧ i ∈ ((cfg3.win 2).blk t).view.set := by
  have hi0 : (i 0).val < 16384 := (i 0).isLt
  have hi1 : (i 1).val < 128 := (i 1).isLt
  have hN : cfg3.N = 128 := N_3
  let t : Fin cfg3.N := ⟨8 * ((i 0).val / 1024) + 7, by rw [hN]; omega⟩
  have htv : t.val = 8 * ((i 0).val / 1024) + 7 := rfl
  obtain ⟨-, -, -, -, e4, e5, -⟩ := where_blocks t
  refine ⟨t, (flush3_2 t).mpr (by rw [htv]; omega), ?_⟩
  show i ∈ ((View.whole main_v3).slice (win3_2.rect t)).set
  rw [View.set_slice_whole, Rect.mem_set_unit]
  intro a
  match a with
  | ⟨0, _⟩ =>
    show win3_2.index t (0 : Fin 2) * 1024 ≤ (i 0).val ∧ (i 0).val < win3_2.index t (0 : Fin 2) * 1024 + 1024
    rw [e4, htv]; omega
  | ⟨1, _⟩ =>
    show win3_2.index t (1 : Fin 2) * 128 ≤ (i 1).val ∧ (i 1).val < win3_2.index t (1 : Fin 2) * 128 + 128
    rw [e5]; omega

/-- So the result array ends holding the product clamped at zero. -/
theorem array_after (c : Dev nD) : (dat3 V c).arrAt 2 cfg3.N = result V c :=
  (dat3 V c).arrAt_eq_of_cover 2 (result V c) (written_back V c) all_covered

end Blocks

end Cert.KernelIdeal.Diffuse3

end
-- ==== Proof.WholeResult.lean ====
import proofs.«119138_j31550829756529_2_alg».proof.Proof.BlockSum

/-!
The whole computation over the extended reals: the scaled, masked input times the weights, then three
multiplications by the support matrix, then the maximum with zero, entry by entry.
-/

noncomputable section

namespace Cert.Diffuse

open Idealize.ShloMosaic

/-- The final array as one function of the four arguments x, support, weights, mask. -/
def finalArr (X : SNK.Idx → EReal) (A : SNN.Idx → EReal) (W : SKD.Idx → EReal) (M : SNK.Idx → EReal) : SND.Idx → EReal :=
  fun i => max (prod A (prod A (prod A (linArr X M W))) i) 0

end Cert.Diffuse

end
-- ==== Proof.KernelValue.lean ====
import proofs.«119138_j31550829756529_2_alg».proof.Proof.KernelRun
import proofs.«119138_j31550829756529_2_alg».proof.Proof.Linear
import proofs.«119138_j31550829756529_2_alg».proof.Proof.Diffuse1
import proofs.«119138_j31550829756529_2_alg».proof.Proof.Diffuse2
import proofs.«119138_j31550829756529_2_alg».proof.Proof.Diffuse3
import proofs.«119138_j31550829756529_2_alg».proof.Proof.WholeResult

/-!
The four launches chained.  No launch writes an argument array, so every launch finds the support matrix as
it was at the start; each launch finds, as its feature matrix, what the launch before left in its result
array.  Hence the last result array holds the whole computation's final array of the four arguments.
-/

set_option maxRecDepth 16384

noncomputable section

namespace Cert.KernelIdeal.Whole

open Cert.KernelIdeal Cert.KernelIdeal.Gen Cert.Diffuse
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The support matrix at each launch's entry is the argument -/

theorem support_at_1 (c : Dev nD) : V1 m ρ c main_arg1 = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

theorem support_at_2 (c : Dev nD) : V2 m ρ c main_arg1 = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := support_at_1 m ρ c

theorem support_at_3 (c : Dev nD) : V3 m ρ c main_arg1 = m ((c : Thread nD τ).loc main_arg1) :=
  calc W3 m ρ c (Proc.devRef .tc main_arg1)
    _ = W2 m ρ c (Proc.devRef .tc main_arg1) := (W3_arr m ρ c 0).trans (((dat2 (V2 m ρ) c).arrAt_in 0 rfl _).trans (A_eq2 (V2 m ρ) c 0))
    _ = m ((c : Thread nD τ).loc main_arg1) := support_at_2 m ρ c

/-! ## Each launch's feature matrix is the result of the launch before -/

/-- After the first launch: the scaled, masked input times the weights. -/
theorem features_at_1 (c : Dev nD) : V1 m ρ c main_v0
    = linArr (m ((c : Thread nD τ).loc main_arg0)) (m ((c : Thread nD τ).loc main_arg3)) (m ((c : Thread nD τ).loc main_arg2)) :=
  (W1_arr m ρ c 3).trans (Linear.array_after (V0 m ρ) c)

/-- After the second launch: one multiplication by the support matrix. -/
theorem features_at_2 (c : Dev nD) : V2 m ρ c main_v1
    = prod (m ((c : Thread nD τ).loc main_arg1))
        (linArr (m ((c : Thread nD τ).loc main_arg0)) (m ((c : Thread nD τ).loc main_arg3)) (m ((c : Thread nD τ).loc main_arg2))) := by
  refine ((W2_arr m ρ c 2).trans (Diffuse1.array_after (V1 m ρ) c)).trans ?_
  show prod (V1 m ρ c main_arg1) (V1 m ρ c main_v0) = _
  rw [support_at_1, features_at_1]

/-- After the third launch: two multiplications. -/
theorem features_at_3 (c : Dev nD) : V3 m ρ c main_v2
    = prod (m ((c : Thread nD τ).loc main_arg1)) (prod (m ((c : Thread nD τ).loc main_arg1))
        (linArr (m ((c : Thread nD τ).loc main_arg0)) (m ((c : Thread nD τ).loc main_arg3)) (m ((c : Thread nD τ).loc main_arg2)))) := by
  refine ((W3_arr m ρ c 2).trans (Diffuse2.array_after (V2 m ρ) c)).trans ?_
  show prod (V2 m ρ c main_arg1) (V2 m ρ c main_v1) = _
  rw [support_at_2, features_at_2]

/-- What the fourth launch's write-backs leave: the final array of the four arguments. -/
theorem last_result (c : Dev nD) : (dat3 (V3 m ρ) c).arrAt 2 cfg3.N
    = finalArr (m ((c : Thread nD τ).loc main_arg0)) (m ((c : Thread nD τ).loc main_arg1)) (m ((c : Thread nD τ).loc main_arg2))
        (m ((c : Thread nD τ).loc main_arg3)) := by
  refine (Diffuse3.array_after (V3 m ρ) c).trans ?_
  show (fun i => max (prod (V3 m ρ c main_arg1) (V3 m ρ c main_v2) i) 0) = _
  rw [support_at_3, features_at_3]
  rfl

/-- Every weakly fair execution of the idealized kernel terminates without a fault, with its result array at the
    final array of the four arguments and the arguments unchanged. -/
theorem run : θ_run defs (onTc (τ := τ) (main (F := Ideal))) ⟨m, fun _ => 0, ρ⟩ (fun r => ∀ c : Dev nD,
      r.2.mem ((c.tc : Thread nD τ).loc main_v3)
        = finalArr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (last_result m ρ c), (h c).2⟩) (RunValue.run (F := Ideal) m ρ)

end Cert.KernelIdeal.Whole

end
-- ==== Proof.Reference.lean ====
import proofs.«119138_j31550829756529_2_alg».proof.Proof.Gen.ReferenceIdeal.Read
import proofs.«119138_j31550829756529_2_alg».proof.Proof.WholeResult
import Idealize.ShloMosaic.Lib.ValueIdx
import Idealize.ShloMosaic.PureOps.Ideal.Laws

/-!
The reference computes the same function of its arguments: its first product is the sum over k below 512 of
((x[r,k] · mask[r,k]) · scale) · w[k,c], each of its three further products is the sum over k below 16384 of
support[r,k] times the previous array at (k,c), and its last step is the maximum with zero.
-/

noncomputable section

namespace Cert.ReferenceIdeal.RefValue

open Cert.ReferenceIdeal Cert.ReferenceIdeal.Read Cert.Diffuse
open Idealize.ShloMosaic Idealize.ShloMosaic.ValueIdx

variable (x0 : (⟨S16384x512, .f32⟩ : BufTy).Contents (Elt Ideal)) (x1 : (⟨S16384x16384, .f32⟩ : BufTy).Contents (Elt Ideal))
  (x2 : (⟨S512x128, .f32⟩ : BufTy).Contents (Elt Ideal)) (x3 : (⟨S16384x512, .f32⟩ : BufTy).Contents (Elt Ideal))

/-- The reference's first product is the scaled, masked input times the weights. -/
theorem first_product : val_main_v3 (F := Ideal) x0 x2 x3 = linArr x0 x3 x2 := by
  funext i
  rw [val_main_v3_apply]
  unfold linArr lin
  refine Finset.sum_congr rfl fun k _ => ?_
  have el : lidx_main_v3 i k = @ix2 16384 512 (i 0) k := funext fun a => Fin.ext (by
    match a with
    | ⟨0, _⟩ => rfl
    | ⟨1, _⟩ => rfl)
  have er : ridx_main_v3 i k = @ix2 512 128 k (i 1) := funext fun a => Fin.ext (by
    match a with
    | ⟨0, _⟩ => rfl
    | ⟨1, _⟩ => rfl)
  rw [el, er]
  rfl

/-- Each further product is the support matrix times the array before it. -/
theorem second_product : val_main_v4 (F := Ideal) x0 x1 x2 x3 = prod x1 (val_main_v3 (F := Ideal) x0 x2 x3) := by
  funext i
  rw [val_main_v4_apply]
  unfold prod mm
  refine Finset.sum_congr rfl fun k _ => ?_
  have el : lidx_main_v4 i k = @ix2 16384 16384 (i 0) k := funext fun a => Fin.ext (by
    match a with
    | ⟨0, _⟩ => rfl
    | ⟨1, _⟩ => rfl)
  have er : ridx_main_v4 i k = @ix2 16384 128 k (i 1) := funext fun a => Fin.ext (by
    match a with
    | ⟨0, _⟩ => rfl
    | ⟨1, _⟩ => rfl)
  rw [el, er]

theorem third_product : val_main_v5 (F := Ideal) x0 x1 x2 x3 = prod x1 (val_main_v4 (F := Ideal) x0 x1 x2 x3) := by
  funext i
  rw [val_main_v5_apply]
  unfold prod mm
  refine Finset.sum_congr rfl fun k _ => ?_
  have el : lidx_main_v5 i k = @ix2 16384 16384 (i 0) k := funext fun a => Fin.ext (by
    match a with
    | ⟨0, _⟩ => rfl
    | ⟨1, _⟩ => rfl)
  have er : ridx_main_v5 i k = @ix2 16384 128 k (i 1) := funext fun a => Fin.ext (by
    match a with
    | ⟨0, _⟩ => rfl
    | ⟨1, _⟩ => rfl)
  rw [el, er]

theorem fourth_product : val_main_v6 (F := Ideal) x0 x1 x2 x3 = prod x1 (val_main_v5 (F := Ideal) x0 x1 x2 x3) := by
  funext i
  rw [val_main_v6_apply]
  unfold prod mm
  refine Finset.sum_congr rfl fun k _ => ?_
  have el : lidx_main_v6 i k = @ix2 16384 16384 (i 0) k := funext fun a => Fin.ext (by
    match a with
    | ⟨0, _⟩ => rfl
    | ⟨1, _⟩ => rfl)
  have er : ridx_main_v6 i k = @ix2 16384 128 k (i 1) := funext fun a => Fin.ext (by
    match a with
    | ⟨0, _⟩ => rfl
    | ⟨1, _⟩ => rfl)
  rw [el, er]

/-- The reference's result is the whole computation's final array. -/
theorem reference_result : val_main_v7 (F := Ideal) x0 x1 x2 x3 = finalArr x0 x1 x2 x3 := by
  funext i
  rw [val_main_v7_apply, val_main_call0_v0_apply, val_main_call0_cst_apply, fourth_product, third_product,
    second_product, first_product]
  show max _ (Ideal.ofBits .f32 0x00000000#32) = _
  rw [Ideal.ofBits_zero_f32]
  rfl

end Cert.ReferenceIdeal.RefValue

end
-- ==== Proof.lean ====
/-
  Equivalence, over the extended reals, of a four-launch kernel — dropout scaling fused with a linear layer, then
  three multiplications by a dense 16384 × 16384 support matrix, the last followed by a maximum with zero — and its
  plain reference.

  The kernel's first launch forms ((x · mask) · scale) · W block by block; each later launch forms support · features
  with the summation index cut into eight stretches of 2048 that are added one after the other into the output
  block, starting from zero.  The reference forms each product as one sum over the whole summation index.  The two
  agree because a sum over 16384 indices is the sum of its eight consecutive stretches: addition of extended reals
  is commutative and associative, so no finiteness of the inputs is needed.  The scale is the same single-precision
  literal on both sides, and the final maximum with zero is the same operation on both sides.

  Nothing is rewritten by the idealization, so the preservation claim is trivial; the three frame claims are the
  runs with their value conjunct dropped.
-/
import proofs.«119138_j31550829756529_2_alg».proof.Defs
import proofs.«119138_j31550829756529_2_alg».proof.Proof.Gen.Kernel
import proofs.«119138_j31550829756529_2_alg».proof.Proof.Gen.Kernel.Skeleton
import proofs.«119138_j31550829756529_2_alg».proof.Proof.Gen.Kernel.Launch
import proofs.«119138_j31550829756529_2_alg».proof.Proof.Gen.Kernel.Points
import proofs.«119138_j31550829756529_2_alg».proof.Proof.Gen.Kernel.Frame
import proofs.«119138_j31550829756529_2_alg».proof.Proof.Gen.KernelIdeal
import proofs.«119138_j31550829756529_2_alg».proof.Proof.Gen.KernelIdeal.Skeleton
import proofs.«119138_j31550829756529_2_alg».proof.Proof.Gen.KernelIdeal.Launch
import proofs.«119138_j31550829756529_2_alg».proof.Proof.Gen.KernelIdeal.Points
import proofs.«119138_j31550829756529_2_alg».proof.Proof.Gen.KernelIdeal.Frame
import proofs.«119138_j31550829756529_2_alg».proof.Proof.Gen.ReferenceIdeal
import proofs.«119138_j31550829756529_2_alg».proof.Proof.Gen.Pre_finite_inputs
import proofs.«119138_j31550829756529_2_alg».proof.Proof.Gen.ReferenceIdeal.Run
import proofs.«119138_j31550829756529_2_alg».proof.Proof.Gen.ReferenceIdeal.Read
import proofs.«119138_j31550829756529_2_alg».proof.Proof.KernelValue
import proofs.«119138_j31550829756529_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the final array of the four arguments, and the arguments agree. -/
theorem algebraic : Cert.algebraic_KernelIdeal_ReferenceIdeal := by
  intro m ρ m' ρ' _ hagree
  refine ⟨fun c => Cert.Diffuse.finalArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
